-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128 : Shape := ⟨2, ![1, 128]⟩
abbrev S2x3200000 : Shape := ⟨2, ![2, 3200000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x400000 : Shape := ⟨2, ![512, 400000]⟩
abbrev S400000 : Shape := ⟨1, ![400000]⟩
abbrev S4x2 : Shape := ⟨2, ![4, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x400000 : S_.BroadcastsInDim S512x400000 (![] : Fin 0 → Fin S512x400000.rank)
  reducesTo_S512x400000_S_d0_1 : S512x400000.ReducesTo [0, 1] S_
  bcast_S_S400000 : S_.BroadcastsInDim S400000 (![] : Fin 0 → Fin S400000.rank)
  reducesTo_S400000_S_d0 : S400000.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S4x2 .f32) (main_arg9 : FVec F S2 .f32) (main_arg10 : FVec F S2x1 .f32) (main_arg11 : FVec F S1 .f32) (main_v33 : IVec S_ 1) : IVec S_ 1 :=
  let main_v34 : FVec F S4x2 .f32 := Host.absf main_arg8
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x1 .f32 := Host.absf main_arg10
  let main_cst_16 : FVec F S_ .f32 := constant S_ .f32 0x7F800000#32
  let main_v45 : FVec F S2x1 .f32 := broadcastInDim S2x1 ![] bcast_S_S2x1 main_cst_16
  let main_v46 : IVec S2x1 1 := cmpf .olt main_v44 main_v45
  let main_c_17 : IVec S_ 1 := constantI S_ 1 1#1
  let main_v47 : IVec S_ 1 := (fun x v => Host.reduce IntOp.andi x v reducesTo_S2x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S512 .f32) (main_arg6 : FVec F S512x400000 .f32) (main_arg7 : FVec F S400000 .f32) (main_arg8 : FVec F S4x2 .f32) (main_arg9 : FVec F S2 .f32) (main_arg10 : FVec F S2x1 .f32) (main_arg11 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x400000 .f32 := Host.absf main_arg6
  let main_cst_8 : FVec F S_ .f32 := constant S_ .f32 0x7F800000#32
  let main_v25 : FVec F S512x400000 .f32 := broadcastInDim S512x400000 ![] bcast_S_S512x400000 main_cst_8
  let main_v26 : IVec S512x400000 1 := cmpf .olt main_v24 main_v25
  let main_c_9 : IVec S_ 1 := constantI S_ 1 1#1
  let main_v27 : IVec S_ 1 := (fun x v => Host.reduce IntOp.andi x v reducesTo_S512x400000_S_d0_1 h_S_) main_v26 main_c_9
  let main_v28 : IVec S_ 1 := andi main_v23 main_v27
  let main_v29 : FVec F S400000 .f32 := Host.absf main_arg7
  let main_cst_10 : FVec F S_ .f32 := constant S_ .f32 0x7F800000#32
  let main_v30 : FVec F S400000 .f32 := broadcastInDim S400000 ![] bcast_S_S400000 main_cst_10
  let main_v31 : IVec S400000 1 := cmpf .olt main_v29 main_v30
  let main_c_11 : IVec S_ 1 := constantI S_ 1 1#1
  let main_v32 : IVec S_ 1 := (fun x v => Host.reduce IntOp.andi x v reducesTo_S400000_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S1x128 .f32) (main_arg1 : IVec S2x3200000 32) (main_arg2 : FVec F S128x256 .f32) (main_arg3 : FVec F S256 .f32) (main_arg4 : FVec F S256x512 .f32) (main_arg5 : FVec F S512 .f32) (main_arg6 : FVec F S512x400000 .f32) (main_arg7 : FVec F S400000 .f32) (main_arg8 : FVec F S4x2 .f32) (main_arg9 : FVec F S2 .f32) (main_arg10 : FVec F S2x1 .f32) (main_arg11 : FVec F S1 .f32) : IVec S_ 1 :=
  let main_v0 : FVec F S1x128 .f32 := Host.absf main_arg0
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_v13 main_v16
-- ==== Kernel.lean ====
abbrev S1x128 : Shape := ⟨2, ![1, 128]⟩
abbrev S2x3200000 : Shape := ⟨2, ![2, 3200000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x400000 : Shape := ⟨2, ![512, 400000]⟩
abbrev S400000 : Shape := ⟨1, ![400000]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x3200000 : Shape := ⟨2, ![1, 3200000]⟩
abbrev S3200000 : Shape := ⟨1, ![3200000]⟩
abbrev S1x256 : Shape := ⟨2, ![1, 256]⟩
abbrev S_ : Shape := ⟨0, ![]⟩
abbrev S1x512 : Shape := ⟨2, ![1, 512]⟩
abbrev S1x400000 : Shape := ⟨2, ![1, 400000]⟩
abbrev S512x12800 : Shape := ⟨2, ![512, 12800]⟩
abbrev S1x12800 : Shape := ⟨2, ![1, 12800]⟩
abbrev S100000x4 : Shape := ⟨2, ![100000, 4]⟩
abbrev S100000 : Shape := ⟨1, ![100000]⟩
abbrev S3200000x1 : Shape := ⟨2, ![3200000, 1]⟩
abbrev S100000x2 : Shape := ⟨2, ![100000, 2]⟩
abbrev S3200000x2 : Shape := ⟨2, ![3200000, 2]⟩
abbrev S100000x1 : Shape := ⟨2, ![100000, 1]⟩
abbrev S1x2 : Shape := ⟨2, ![1, 2]⟩
abbrev S1x1 : Shape := ⟨2, ![1, 1]⟩

abbrev nBuf : Space → Nat
  | .hbm => 142
  | .vmem => 7
  | .smem => 0
  | _ => 0

abbrev hbmTy0_0 (i : Nat) : BufTy := match i % 128 with
  | 0 => ⟨S1x128, .f32⟩
  | 1 => ⟨S2x3200000, .i32⟩
  | 2 => ⟨S128x256, .f32⟩
  | 3 => ⟨S256, .f32⟩
  | 4 => ⟨S256x512, .f32⟩
  | 5 => ⟨S512, .f32⟩
  | 6 => ⟨S512x400000, .f32⟩
  | 7 => ⟨S400000, .f32⟩
  | 8 => ⟨S4x2, .f32⟩
  | 9 => ⟨S2, .f32⟩
  | 10 => ⟨S2x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S1x256, .f32⟩
  | 17 => ⟨S1x256, .f32⟩
  | 18 => ⟨S1x256, .f32⟩
  | 19 => ⟨S_, .f32⟩
  | 20 => ⟨S1x256, .f32⟩
  | 21 => ⟨S1x256, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x400000, .f32⟩
  | 29 => ⟨S1x400000, .f32⟩
  | 30 => ⟨S100000x4, .f32⟩
  | 31 => ⟨S_, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S_, .f32⟩
  | 42 => ⟨S3200000, .f32⟩
  | 43 => ⟨S100000, .f32⟩
  | 44 => ⟨S_, .f32⟩
  | 45 => ⟨S100000, .f32⟩
  | 46 => ⟨S100000, .f32⟩
  | 47 => ⟨S100000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000, .f32⟩
  | 66 => ⟨S3200000, .f32⟩
  | 67 => ⟨S_, .f32⟩
  | 68 => ⟨S100000, .f32⟩
  | 69 => ⟨S100000, .f32⟩
  | 70 => ⟨S100000x2, .f32⟩
  | 71 => ⟨S_, .f32⟩
  | 72 => ⟨S100000x2, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x2, .f32⟩
  | 82 => ⟨S3200000x1, .f32⟩
  | 83 => ⟨S3200000x2, .f32⟩
  | 84 => ⟨S3200000x2, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S100000x2, .f32⟩
  | 94 => ⟨S100000x1, .f32⟩
  | 95 => ⟨S100000x2, .f32⟩
  | 96 => ⟨S100000x2, .f32⟩
  | 97 => ⟨S100000x2, .f32⟩
  | 98 => ⟨S1x2, .f32⟩
  | 99 => ⟨S100000x2, .f32⟩
  | 100 => ⟨S100000x2, .f32⟩
  | 101 => ⟨S_, .f32⟩
  | 102 => ⟨S100000x2, .f32⟩
  | 103 => ⟨S100000x2, .f32⟩
  | 104 => ⟨S100000x1, .f32⟩
  | 105 => ⟨S_, .f32⟩
  | 106 => ⟨S100000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x1, .f32⟩
  | 116 => ⟨S3200000x1, .f32⟩
  | 117 => ⟨S3200000x1, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S100000x1, .f32⟩
  | 127 => ⟨S100000x1, .f32⟩
  | _ => ⟨S1x128, .f32⟩

abbrev hbmTy0_1 (i : Nat) : BufTy := match i % 128 with
  | 0 => ⟨S100000x1, .f32⟩
  | 1 => ⟨S100000x1, .f32⟩
  | 2 => ⟨S1x1, .f32⟩
  | 3 => ⟨S100000x1, .f32⟩
  | 4 => ⟨S100000x1, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S_, .f32⟩
  | 11 => ⟨S100000x1, .f32⟩
  | 12 => ⟨S100000x1, .f32⟩
  | 13 => ⟨S100000, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | .local _ .vmem, ⟨0, _⟩ => ⟨S1x512, .f32⟩
  | .local _ .vmem, ⟨1, _⟩ => ⟨S512x12800, .f32⟩
  | .local _ .vmem, ⟨2, _⟩ => ⟨S512x12800, .f32⟩
  | .local _ .vmem, ⟨3, _⟩ => ⟨S1x12800, .f32⟩
  | .local _ .vmem, ⟨4, _⟩ => ⟨S1x12800, .f32⟩
  | .local _ .vmem, ⟨5, _⟩ => ⟨S1x12800, .f32⟩
  | .local _ .vmem, ⟨6, _⟩ => ⟨S1x12800, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call2_cst : Ref sig .tc := ⟨.hbm, 101, rfl⟩
abbrev main_call2_v0 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_c_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_cst_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S256_S1x256_1 : S256.BroadcastsInDim S1x256 (![1] : Fin 1 → Fin S1x256.rank)
  bcast_S_S1x256 : S_.BroadcastsInDim S1x256 (![] : Fin 0 → Fin S1x256.rank)
  bcast_S512_S1x512_1 : S512.BroadcastsInDim S1x512 (![1] : Fin 1 → Fin S1x512.rank)
  bcast_S_S1x512 : S_.BroadcastsInDim S1x512 (![] : Fin 0 → Fin S1x512.rank)
  shapeCasts_S400000_S1x400000 : S400000.ShapeCasts S1x400000
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x12800_S512x12800_0_0 : ∀ a, (![0, 0] : Fin 2 → Nat) a + S512x12800.size a ≤ S512x12800.size a
  h_S512x12800 : 0 < S512x12800.numel
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  shapeCasts_S1x400000_S100000x4 : S1x400000.ShapeCasts S100000x4
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S3200000x1_S3200000x2_0_1 : S3200000x1.BroadcastsInDim S3200000x2 (![0, 1] : Fin 2 → Fin S3200000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S1x128_S128x256_S1x256_1_0_0_1_n_n_wf : DotDims.WF S1x128 S128x256 S1x256 [1] [0] [0] [1] [] []
  dot_S1x256_S256x512_S1x512_1_0_0_1_n_n_wf : DotDims.WF S1x256 S256x512 S1x512 [1] [0] [0] [1] [] []
  dot_S1x512_S512x12800_S1x12800_1_0_0_1_n_n_wf : DotDims.WF S1x512 S512x12800 S1x12800 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x4_S4x2_S100000x2_1_0_0_1_n_n_wf : DotDims.WF S100000x4 S4x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x1_S100000x1_1_0_0_1_n_n_wf : DotDims.WF S100000x2 S2x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x12800.size a < S512x400000.size a
  hwx0_1 : ∀ i : grid0.Coords, EltTy.bits .f32 = 32 ∨ (Rect.unit (s := S512x400000) (fun a => cc0_transform_1 i a * S512x12800.size a) (fun a => (Pipeline.Clip.of (cc0_transform_1 i a) (S512x12800.size a) (S512x400000.size a)).extent (S512x12800.size a)) fun a => Pipeline.Clip.inb (Pipeline.Clip.ok_of (hstart0_1 i a))).WholeWords (EltTy.packing .f32)
  hwxs0_1 : ∀ i : grid0.Coords, EltTy.bits .f32 = 32 ∨ (Rect.unit (s := S512x12800) (fun _ => 0) (fun a => (Pipeline.Clip.of (cc0_transform_1 i a) (S512x12800.size a) (S512x400000.size a)).extent (S512x12800.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x12800.size a < S1x400000.size a
  hwx0_2 : ∀ i : grid0.Coords, EltTy.bits .f32 = 32 ∨ (Rect.unit (s := S1x400000) (fun a => cc0_transform_2 i a * S1x12800.size a) (fun a => (Pipeline.Clip.of (cc0_transform_2 i a) (S1x12800.size a) (S1x400000.size a)).extent (S1x12800.size a)) fun a => Pipeline.Clip.inb (Pipeline.Clip.ok_of (hstart0_2 i a))).WholeWords (EltTy.packing .f32)
  hwxs0_2 : ∀ i : grid0.Coords, EltTy.bits .f32 = 32 ∨ (Rect.unit (s := S1x12800) (fun _ => 0) (fun a => (Pipeline.Clip.of (cc0_transform_2 i a) (S1x12800.size a) (S1x400000.size a)).extent (S1x12800.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x12800.size a < S1x400000.size a
  hwx0_3 : ∀ i : grid0.Coords, EltTy.bits .f32 = 32 ∨ (Rect.unit (s := S1x400000) (fun a => cc0_transform_3 i a * S1x12800.size a) (fun a => (Pipeline.Clip.of (cc0_transform_3 i a) (S1x12800.size a) (S1x400000.size a)).extent (S1x12800.size a)) fun a => Pipeline.Clip.inb (Pipeline.Clip.ok_of (hstart0_3 i a))).WholeWords (EltTy.packing .f32)
  hwxs0_3 : ∀ i : grid0.Coords, EltTy.bits .f32 = 32 ∨ (Rect.unit (s := S1x12800) (fun _ => 0) (fun a => (Pipeline.Clip.of (cc0_transform_3 i a) (S1x12800.size a) (S1x400000.size a)).extent (S1x12800.size a)) fun a => (Nat.zero_add _).trans_le (Pipeline.Clip.extent_le (Pipeline.Clip.ok_of (hstart0_3 i a)))).WholeWords (EltTy.packing .f32)

variable [Facts₀]

def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S1x512_S512x12800_S1x12800_1_0_0_1_n_n : DotDims S1x512 S512x12800 S1x12800 where
  lhsContracting := [1]
  rhsContracting := [0]
  lhsNonContracting := [0]
  rhsNonContracting := [1]
  lhsBatch := []
  rhsBatch := []
  wf := dot_S1x512_S512x12800_S1x12800_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_v11) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg6) S512x12800.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v12) S1x12800.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v13) S1x12800.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x128 : Shape := ⟨2, ![1, 128]⟩
abbrev S2x3200000 : Shape := ⟨2, ![2, 3200000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x400000 : Shape := ⟨2, ![512, 400000]⟩
abbrev S400000 : Shape := ⟨1, ![400000]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x3200000 : Shape := ⟨2, ![1, 3200000]⟩
abbrev S3200000 : Shape := ⟨1, ![3200000]⟩
abbrev S1x256 : Shape := ⟨2, ![1, 256]⟩
abbrev S_ : Shape := ⟨0, ![]⟩
abbrev S1x512 : Shape := ⟨2, ![1, 512]⟩
abbrev S1x400000 : Shape := ⟨2, ![1, 400000]⟩
abbrev S100000x4 : Shape := ⟨2, ![100000, 4]⟩
abbrev S100000x2 : Shape := ⟨2, ![100000, 2]⟩
abbrev S100000 : Shape := ⟨1, ![100000]⟩
abbrev S3200000x1 : Shape := ⟨2, ![3200000, 1]⟩
abbrev S3200000x2 : Shape := ⟨2, ![3200000, 2]⟩
abbrev S100000x1 : Shape := ⟨2, ![100000, 1]⟩
abbrev S1x2 : Shape := ⟨2, ![1, 2]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S1x128, .f32⟩
  | 1 => ⟨S2x3200000, .i32⟩
  | 2 => ⟨S128x256, .f32⟩
  | 3 => ⟨S256, .f32⟩
  | 4 => ⟨S256x512, .f32⟩
  | 5 => ⟨S512, .f32⟩
  | 6 => ⟨S512x400000, .f32⟩
  | 7 => ⟨S400000, .f32⟩
  | 8 => ⟨S4x2, .f32⟩
  | 9 => ⟨S2, .f32⟩
  | 10 => ⟨S2x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S1x256, .f32⟩
  | 17 => ⟨S1x256, .f32⟩
  | 18 => ⟨S1x256, .f32⟩
  | 19 => ⟨S_, .f32⟩
  | 20 => ⟨S1x256, .f32⟩
  | 21 => ⟨S1x256, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x400000, .f32⟩
  | 29 => ⟨S1x400000, .f32⟩
  | 30 => ⟨S1x400000, .f32⟩
  | 31 => ⟨S_, .f32⟩
  | 32 => ⟨S1x400000, .f32⟩
  | 33 => ⟨S1x400000, .f32⟩
  | 34 => ⟨S100000x4, .f32⟩
  | 35 => ⟨S100000x2, .f32⟩
  | 36 => ⟨S_, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S_, .f32⟩
  | 47 => ⟨S3200000, .f32⟩
  | 48 => ⟨S100000, .f32⟩
  | 49 => ⟨S_, .f32⟩
  | 50 => ⟨S100000, .f32⟩
  | 51 => ⟨S100000, .f32⟩
  | 52 => ⟨S100000, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000, .f32⟩
  | 71 => ⟨S3200000, .f32⟩
  | 72 => ⟨S_, .f32⟩
  | 73 => ⟨S100000x2, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x2, .f32⟩
  | 83 => ⟨S3200000x1, .f32⟩
  | 84 => ⟨S3200000x2, .f32⟩
  | 85 => ⟨S3200000x2, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S100000x2, .f32⟩
  | 95 => ⟨S_, .f32⟩
  | 96 => ⟨S100000, .f32⟩
  | 97 => ⟨S100000, .f32⟩
  | 98 => ⟨S100000x1, .f32⟩
  | 99 => ⟨S100000x2, .f32⟩
  | 100 => ⟨S100000x2, .f32⟩
  | 101 => ⟨S100000x2, .f32⟩
  | 102 => ⟨S1x2, .f32⟩
  | 103 => ⟨S100000x2, .f32⟩
  | 104 => ⟨S100000x2, .f32⟩
  | 105 => ⟨S_, .f32⟩
  | 106 => ⟨S100000x2, .f32⟩
  | 107 => ⟨S100000x2, .f32⟩
  | 108 => ⟨S100000x1, .f32⟩
  | 109 => ⟨S_, .f32⟩
  | 110 => ⟨S100000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S_, .f32⟩
  | 120 => ⟨S3200000, .f32⟩
  | 121 => ⟨S100000, .f32⟩
  | 122 => ⟨S_, .f32⟩
  | 123 => ⟨S100000, .f32⟩
  | 124 => ⟨S100000, .f32⟩
  | 125 => ⟨S100000, .f32⟩
  | 126 => ⟨S_, .i32⟩
  | 127 => ⟨S3200000, .i32⟩
  | _ => ⟨S1x128, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000, .f32⟩
  | 16 => ⟨S3200000, .f32⟩
  | 17 => ⟨S_, .f32⟩
  | 18 => ⟨S100000x1, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x1, .f32⟩
  | 28 => ⟨S3200000x1, .f32⟩
  | 29 => ⟨S3200000x1, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S100000x1, .f32⟩
  | 39 => ⟨S_, .f32⟩
  | 40 => ⟨S100000, .f32⟩
  | 41 => ⟨S100000, .f32⟩
  | 42 => ⟨S100000x1, .f32⟩
  | 43 => ⟨S100000x1, .f32⟩
  | 44 => ⟨S100000x1, .f32⟩
  | 45 => ⟨S1x1, .f32⟩
  | 46 => ⟨S100000x1, .f32⟩
  | 47 => ⟨S100000x1, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call2_cst : Ref sig .tc := ⟨.hbm, 31, rfl⟩
abbrev main_call2_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call3_cst : Ref sig .tc := ⟨.hbm, 105, rfl⟩
abbrev main_call3_v0 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_c_19 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_20 : Ref sig .tc := ⟨.hbm, 135, rfl⟩
abbrev main_v93 : Ref sig .tc := ⟨.hbm, 136, rfl⟩
abbrev main_v94 : Ref sig .tc := ⟨.hbm, 137, rfl⟩
abbrev main_c_21 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_22 : Ref sig .tc := ⟨.hbm, 145, rfl⟩
abbrev main_v101 : Ref sig .tc := ⟨.hbm, 146, rfl⟩
abbrev main_c_23 : Ref sig .tc := ⟨.hbm, 147, rfl⟩
abbrev main_v102 : Ref sig .tc := ⟨.hbm, 148, rfl⟩
abbrev main_v103 : Ref sig .tc := ⟨.hbm, 149, rfl⟩
abbrev main_c_24 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_25 : Ref sig .tc := ⟨.hbm, 158, rfl⟩
abbrev main_v111 : Ref sig .tc := ⟨.hbm, 159, rfl⟩
abbrev main_v112 : Ref sig .tc := ⟨.hbm, 160, rfl⟩
abbrev main_c_26 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_27 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_28 : Ref sig .tc := ⟨.hbm, 178, rfl⟩
abbrev main_v128 : Ref sig .tc := ⟨.hbm, 179, rfl⟩
abbrev main_v129 : Ref sig .tc := ⟨.hbm, 180, rfl⟩
abbrev main_cst_29 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S256_S1x256_1 : S256.BroadcastsInDim S1x256 (![1] : Fin 1 → Fin S1x256.rank)
  bcast_S_S1x256 : S_.BroadcastsInDim S1x256 (![] : Fin 0 → Fin S1x256.rank)
  bcast_S512_S1x512_1 : S512.BroadcastsInDim S1x512 (![1] : Fin 1 → Fin S1x512.rank)
  bcast_S_S1x512 : S_.BroadcastsInDim S1x512 (![] : Fin 0 → Fin S1x512.rank)
  bcast_S400000_S1x400000_1 : S400000.BroadcastsInDim S1x400000 (![1] : Fin 1 → Fin S1x400000.rank)
  bcast_S_S1x400000 : S_.BroadcastsInDim S1x400000 (![] : Fin 0 → Fin S1x400000.rank)
  shapeCasts_S1x400000_S100000x4 : S1x400000.ShapeCasts S100000x4
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S3200000x1_S3200000x2_0_1 : S3200000x1.BroadcastsInDim S3200000x2 (![0, 1] : Fin 2 → Fin S3200000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S1x128_S128x256_S1x256_1_0_0_1_n_n_wf : DotDims.WF S1x128 S128x256 S1x256 [1] [0] [0] [1] [] []
  dot_S1x256_S256x512_S1x512_1_0_0_1_n_n_wf : DotDims.WF S1x256 S256x512 S1x512 [1] [0] [0] [1] [] []
  dot_S1x512_S512x400000_S1x400000_1_0_0_1_n_n_wf : DotDims.WF S1x512 S512x400000 S1x400000 [1] [0] [0] [1] [] []
  dot_S100000x4_S4x2_S100000x2_1_0_0_1_n_n_wf : DotDims.WF S100000x4 S4x2 S100000x2 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x1_S100000x1_1_0_0_1_n_n_wf : DotDims.WF S100000x2 S2x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S1x512_S512x400000_S1x400000_1_0_0_1_n_n : DotDims S1x512 S512x400000 S1x400000 where
  lhsContracting := [1]
  rhsContracting := [0]
  lhsNonContracting := [0]
  rhsNonContracting := [1]
  lhsBatch := []
  rhsBatch := []
  wf := dot_S1x512_S512x400000_S1x400000_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.K_Host.lean ====
/-
  The host program around the one region, for any float instance: the buffer contents the region is entered at
  (the fold of the lines before it over the launch memory), the program as "lines, the region, lines", what the
  lines after the region may touch (the bypassing buffers, never one of the four windowed arrays, never an argument),
  and that no line before the region writes an argument array.
-/
import proofs.«116783_j58213986730639_2_alg».proof.Proof.Gen.Kernel.Launch
import proofs.«116783_j58213986730639_2_alg».proof.Proof.Gen.Kernel.Skeleton
import proofs.«116783_j58213986730639_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- The five stretches of lines before the region: the two index rows sliced out of the edge list, and the two dense
    rectified layers that produce the 512-wide feature row; then the bias row of the third layer reshaped to [1, 400000]. -/
abbrev linesBefore : List (List (HloOp τ sig (Elt F))) := [hostOps0, hostOps0_1, hostOps0_2, hostOps0_3, hostOps0_4]
/-- The three stretches after it: the degree normalisation and the two graph-convolution layers, the logistic at the end. -/
abbrev linesAfter : List (List (HloOp τ sig (Elt F))) := [hostOps1, hostOps1_1, hostOps1_2]

/-- Core `c`'s buffer contents when the region is entered. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the lines before the region, the region, the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main linesBefore linesAfter
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the four windowed arrays and the bypassing buffers only. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem after_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of the long stretch after the region writes one of the four windowed arrays (each writes its own result). -/
theorem keeps1 : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem keeps1_1 : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem keeps1_2 : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem after_keeps : ∀ ops ∈ (linesAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The argument arrays -/

/-- The twelve argument arrays. -/
def argRefs : Finset (Ref sig .tc) :=
  {main_arg0, main_arg1, main_arg2, main_arg3, main_arg4, main_arg5, main_arg6, main_arg7, main_arg8, main_arg9, main_arg10, main_arg11}

/-- Every buffer that is no argument array: a superset of what the lines after the region write. -/
def nonArgs : Finset (Ref sig .tc) := Finset.univ.filter fun b => b ∉ argRefs

theorem mem_nonArgs {b : Ref sig .tc} (h : b ∉ argRefs) : b ∈ nonArgs :=
  Finset.mem_filter.mpr ⟨Finset.mem_univ _, h⟩

/-- Each line after the region writes a buffer that is no argument array. -/
theorem writes1 : (hostOps1 : List (HloOp τ sig (Elt F))).Forall fun op =>
    ∀ b : Ref sig .tc, Proc.devRef .tc b ∈ op.writes → b ∈ nonArgs := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))
theorem writes1_1 : (hostOps1_1 : List (HloOp τ sig (Elt F))).Forall fun op =>
    ∀ b : Ref sig .tc, Proc.devRef .tc b ∈ op.writes → b ∈ nonArgs := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))
theorem writes1_2 : (hostOps1_2 : List (HloOp τ sig (Elt F))).Forall fun op =>
    ∀ b : Ref sig .tc, Proc.devRef .tc b ∈ op.writes → b ∈ nonArgs := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))

theorem after_writes : ∀ ops ∈ (linesAfter : List (List (HloOp τ sig (Elt F)))), ∀ op ∈ ops,
    ∀ b : Ref sig .tc, Proc.devRef .tc b ∈ op.writes → b ∈ nonArgs := by
  intro ops hops op hop
  simp only [List.mem_cons, List.mem_nil_iff, or_false] at hops
  rcases hops with rfl | rfl | rfl
  · exact (List.forall_iff_forall_mem.mp writes1) op hop
  · exact (List.forall_iff_forall_mem.mp writes1_1) op hop
  · exact (List.forall_iff_forall_mem.mp writes1_2) op hop

/-- No line before the region writes an argument array: the region finds each as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [argRefs, Finset.mem_insert, Finset.mem_singleton] at hb
    repeat' apply And.intro
    all_goals (rcases hb with rfl | rfl | rfl | rfl | rfl | rfl | rfl | rfl | rfl | rfl | rfl | rfl <;> exact StableHlo.devRef_ne_of_ne (by decide))))

end Cert.Kernel.Hand

end
-- ==== Proof.K_Body.lean ====
/-
  The kernel body on four whole staging buffers, for any float instance: it loads the feature row, the weight tile
  and the bias tile whole, loads the result tile (a value nothing uses), and stores over the whole result tile the
  rectified sum of the row-by-tile product and the bias tile. The three input buffers are left as found.
-/
import proofs.«116783_j58213986730639_2_alg».proof.Proof.K_Host

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The whole-buffer rectangles of the three buffer shapes. -/
abbrev rRow : Rect S1x512 := Rect.unit (s := S1x512) ![0, 0] S1x512.size inb_S1x512_S1x512_0_0
abbrev rTile : Rect S512x12800 := Rect.unit (s := S512x12800) ![0, 0] S512x12800.size inb_S512x12800_S512x12800_0_0
abbrev rOut : Rect S1x12800 := Rect.unit (s := S1x12800) ![0, 0] S1x12800.size inb_S1x12800_S1x12800_0_0

/-- What the body leaves in the result tile, from the contents of the three input buffers: its one store. -/
def outTile (x0 : Vec F S1x512 .f32) (x1 : Vec F S512x12800 .f32) (x2 : Vec F S1x12800 .f32) : Vec F S1x12800 .f32 :=
  View.canon [⟨rOut, k0_pay1 (View.ld x0 rRow) (View.ld x1 rTile) (View.ld x2 rOut)⟩]

/-- The one store covers the tile. -/
theorem coverOut (p0 : Vec F S1x12800 .f32) (y : S1x12800.Idx) :
    ∃ pc ∈ ([⟨rOut, p0⟩] : List (View.Piece (Elt F) S1x12800 .f32)), y ∈ pc.1.set :=
  View.cover_of_tiled [⟨rOut, p0⟩] S1x12800.size (by rfl) y

set_option maxHeartbeats 1000000 in
/-- The body's triple on whole staging memrefs. -/
theorem sound_kernel (c : Dev nD) (E : Set ℕ) (i : grid0.Coords)
    (arg1 : Memref sig .tc .vmem S1x512 .f32) (harg1 : arg1.IsWhole) (arg2 : Memref sig .tc .vmem S512x12800 .f32) (harg2 : arg2.IsWhole)
    (arg3 : Memref sig .tc .vmem S1x12800 .f32) (harg3 : arg3.IsWhole) (arg4 : Memref sig .tc .vmem S1x12800 .f32) (harg4 : arg4.IsWhole)
    (x0 : Vec F S1x512 .f32) (x1 : Vec F S512x12800 .f32) (x2 : Vec F S1x12800 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__trunk3_kernel i arg1 harg1 arg2 harg2 arg3 harg3 arg4 harg4) K := by
  simp only [cc0__trunk3_kernel_eq_skeleton]; unfold cc0__trunk3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.Kernel.Hand

end
-- ==== Proof.K_Frame.lean ====
/-
  The frame of the program, for any float instance: every weakly fair execution ends, nothing faults, and the twelve
  argument arrays end as launched. Nothing is said of what the body computes: the proof data relate nothing (whatever
  the four staging buffers hold when the body is entered, it runs, and leaves them holding something). That is all a
  frame needs, and it is all that holds at bit patterns for the last, overhanging tile, whose product is a function
  of the whole weight tile, the words past the array's end included. An input array is never written back; every other
  argument bypasses the region and is written by no line after it.
-/
import proofs.«116783_j58213986730639_2_alg».proof.Proof.K_Body
import proofs.«116783_j58213986730639_2_alg».proof.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; nothing said of
    what the body leaves in a staging buffer; the class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rdat_A (c : Dev nD) (w : Fin cfg0.W) : (rdat m c).A w = V m c (Pipeline.arrRef spec0 w) := by
  dsimp only [rdat]

/-- The body at any point, on whatever the four current staging buffers hold. -/
theorem body_any (c : Dev nD) (t : Fin cfg0.N)
    (Y0 : Vec F S1x512 .f32) (Y1 : Vec F S512x12800 .f32) (Y2 : Vec F S1x12800 .f32) (Y3 : Vec F S1x12800 .f32) :
    iprop((rdat m c).Φ t.castSucc ∗ (rdat m c).owesAt () t.castSucc
        ∗ owns (c : Thread nD τ) (st0_0 t) fullShare Y0 ∗ owns (c : Thread nD τ) (st0_1 t) fullShare Y1
        ∗ owns (c : Thread nD τ) (st0_2 t) fullShare Y2 ∗ owns (c : Thread nD τ) (st0_3 t) fullShare Y3)
      ⊢ wp frame (wpE (defs₀ (F := F)) Variants.none c none) Set.univ (bodyAt0 t) (fun _ =>
          iprop((rdat m c).Φ t.succ ∗ (rdat m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_kernel c Set.univ (grid0.coords t) _ _ _ _ _ _ _ _ Y0 Y1 Y2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists Y0; isplitr
    · ipureintro; trivial
    · iexact H0
  isplitl [H1]
  · iexists Y1; isplitr
    · ipureintro; trivial
    · iexact H1
  isplitl [H2]
  · iexists Y2; isplitr
    · ipureintro; trivial
    · iexact H2
  iexists (outTile Y0 Y1 Y2); isplitr
  · ipureintro; trivial
  · iexact H3

/-- The library's relational body obligation. -/
theorem body_obligation (c : Dev nD) : (rdat (F := F) m c).BodyObligation (defs₀ (F := F)) Variants.none () Set.univ := fun t Y _ => by
  rw [bigSep_W0, bigSep_W0]
  exact body_any m c t (Y 0) (Y 1) (Y 2) (Y 3)

set_option backward.isDefEq.respectTransparency.types false in
/-- The run: every weakly fair execution of the program terminates; each input array of the pipeline ends as the region
    found it, and every bypassing buffer that is an argument array too. -/
theorem run_main : θ_run defs (onTc (τ := τ) (main (F := F))) (s₀ m ρ)
    (Pipeline.RDat.FramePostR cfg0 (rdat m) nonArgs (V m)) :=
  Pipeline.RDat.θ_run_frame_around_T cfgs (0 : Fin 1) launch0 defs₀ Variants.none (rdat m) nonArgs m ρ main
    (hbody := body_obligation m) (hshare := fun c => (rdat m c).share_full fun _ => rfl)
    (howed := fun _ _ => rfl) (V₀ := V0 m) (opss := linesAfter) (hsub := after_sub) (hfresh := after_fresh) (hkeep := after_keeps)
    (hT := after_writes) (hmain := hmain m Variants.none) (hA := rdat_A m) (hΦ := fun _ _ => rfl)

/-- A bypassing argument array ends as launched. -/
theorem rest_arg (r : PUnit × MemSt nD τ sig (Elt F)) (h : Pipeline.RDat.FramePostR cfg0 (rdat m) nonArgs (V m) r) (c : Dev nD)
    (b : Ref sig .tc) (hb : b ∈ argRefs) (hs : b.isScoped = false) (ha : ∀ w, (spec0 w).arr.view.ref ≠ b) :
    r.2.mem ((c.tc : Thread nD τ).loc b) = m ((c.tc : Thread nD τ).loc b) :=
  ((h c).2 b (Finset.mem_sdiff.mpr ⟨Pipeline.mem_restRefs_of b hs ha,
    fun hn => (Finset.mem_filter.mp hn).2 hb⟩)).trans (V_arg m c b hb)

/-- The weight matrix, the one argument a window stages, is an input of the pipeline: it ends as launched. -/
theorem arr_arg6 (r : PUnit × MemSt nD τ sig (Elt F)) (h : Pipeline.RDat.FramePostR cfg0 (rdat m) nonArgs (V m) r) (c : Dev nD) :
    r.2.mem ((c.tc : Thread nD τ).loc main_arg6) = m ((c.tc : Thread nD τ).loc main_arg6) := by
  have h1 := (h c).1 1
  rw [(rdat m c).ArrAt_in 1 rfl] at h1
  exact h1.trans ((rdat_A m c 1).trans (V_arg m c main_arg6 (by decide)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      rest_arg m r h c main_arg0 (by decide) (by decide) (by decide),
      rest_arg m r h c main_arg1 (by decide) (by decide) (by decide),
      rest_arg m r h c main_arg2 (by decide) (by decide) (by decide),
      rest_arg m r h c main_arg3 (by decide) (by decide) (by decide),
      rest_arg m r h c main_arg4 (by decide) (by decide) (by decide),
      rest_arg m r h c main_arg5 (by decide) (by decide) (by decide),
      arr_arg6 m r h c,
      rest_arg m r h c main_arg7 (by decide) (by decide) (by decide),
      rest_arg m r h c main_arg8 (by decide) (by decide) (by decide),
      rest_arg m r h c main_arg9 (by decide) (by decide) (by decide),
      rest_arg m r h c main_arg10 (by decide) (by decide) (by decide),
      rest_arg m r h c main_arg11 (by decide) (by decide) (by decide)⟩) (run_main m ρ)

end Cert.Kernel.Hand

end
-- ==== Proof.KI_Host.lean ====
/-
  The host program around the one region, for any float instance: the buffer contents the region is entered at
  (the fold of the lines before it over the launch memory), the program as "lines, the region, lines", what the
  lines after the region may touch (the bypassing buffers, never one of the four windowed arrays, never an argument),
  and that no line before the region writes an argument array.
-/
import proofs.«116783_j58213986730639_2_alg».proof.Proof.Gen.KernelIdeal.Launch
import proofs.«116783_j58213986730639_2_alg».proof.Proof.Gen.KernelIdeal.Skeleton
import proofs.«116783_j58213986730639_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- The five stretches of lines before the region: the two index rows sliced out of the edge list, and the two dense
    rectified layers that produce the 512-wide feature row; then the bias row of the third layer reshaped to [1, 400000]. -/
abbrev linesBefore : List (List (HloOp τ sig (Elt F))) := [hostOps0, hostOps0_1, hostOps0_2, hostOps0_3, hostOps0_4]
/-- The three stretches after it: the degree normalisation and the two graph-convolution layers, the logistic at the end. -/
abbrev linesAfter : List (List (HloOp τ sig (Elt F))) := [hostOps1, hostOps1_1, hostOps1_2]

/-- Core `c`'s buffer contents when the region is entered. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the lines before the region, the region, the lines after it: it reduces to the region continued by
    the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main linesBefore linesAfter
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the four windowed arrays and the bypassing buffers only. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem after_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of the long stretch after the region writes one of the four windowed arrays (each writes its own result). -/
theorem keeps1 : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem keeps1_1 : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem keeps1_2 : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem after_keeps : ∀ ops ∈ (linesAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp keeps1) op hop
  · exact (List.forall_iff_forall_mem.mp keeps1_1) op hop
  · exact (List.forall_iff_forall_mem.mp keeps1_2) op hop

/-! ## The argument arrays -/

/-- The twelve argument arrays. -/
def argRefs : Finset (Ref sig .tc) :=
  {main_arg0, main_arg1, main_arg2, main_arg3, main_arg4, main_arg5, main_arg6, main_arg7, main_arg8, main_arg9, main_arg10, main_arg11}

/-- Every buffer that is no argument array: a superset of what the lines after the region write. -/
def nonArgs : Finset (Ref sig .tc) := Finset.univ.filter fun b => b ∉ argRefs

theorem mem_nonArgs {b : Ref sig .tc} (h : b ∉ argRefs) : b ∈ nonArgs :=
  Finset.mem_filter.mpr ⟨Finset.mem_univ _, h⟩

/-- Each line after the region writes a buffer that is no argument array. -/
theorem writes1 : (hostOps1 : List (HloOp τ sig (Elt F))).Forall fun op =>
    ∀ b : Ref sig .tc, Proc.devRef .tc b ∈ op.writes → b ∈ nonArgs := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))
theorem writes1_1 : (hostOps1_1 : List (HloOp τ sig (Elt F))).Forall fun op =>
    ∀ b : Ref sig .tc, Proc.devRef .tc b ∈ op.writes → b ∈ nonArgs := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))
theorem writes1_2 : (hostOps1_2 : List (HloOp τ sig (Elt F))).Forall fun op =>
    ∀ b : Ref sig .tc, Proc.devRef .tc b ∈ op.writes → b ∈ nonArgs := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; obtain rfl := Proc.devRef_injective (τ := τ) _ hb; exact mem_nonArgs (by decide))

theorem after_writes : ∀ ops ∈ (linesAfter : List (List (HloOp τ sig (Elt F)))), ∀ op ∈ ops,
    ∀ b : Ref sig .tc, Proc.devRef .tc b ∈ op.writes → b ∈ nonArgs := by
  intro ops hops op hop
  simp only [List.mem_cons, List.mem_nil_iff, or_false] at hops
  rcases hops with rfl | rfl | rfl
  · exact (List.forall_iff_forall_mem.mp writes1) op hop
  · exact (List.forall_iff_forall_mem.mp writes1_1) op hop
  · exact (List.forall_iff_forall_mem.mp writes1_2) op hop

/-- No line before the region writes an argument array: the region finds each as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [argRefs, Finset.mem_insert, Finset.mem_singleton] at hb
    repeat' apply And.intro
    all_goals (rcases hb with rfl | rfl | rfl | rfl | rfl | rfl | rfl | rfl | rfl | rfl | rfl | rfl <;> exact StableHlo.devRef_ne_of_ne (by decide))))

end Cert.KernelIdeal.Hand

end
-- ==== Proof.KI_Body.lean ====
/-
  The kernel body on four whole staging buffers, for any float instance: it loads the feature row, the weight tile
  and the bias tile whole, loads the result tile (a value nothing uses), and stores over the whole result tile the
  rectified sum of the row-by-tile product and the bias tile. The three input buffers are left as found.
-/
import proofs.«116783_j58213986730639_2_alg».proof.Proof.KI_Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The whole-buffer rectangles of the three buffer shapes. -/
abbrev rRow : Rect S1x512 := Rect.unit (s := S1x512) ![0, 0] S1x512.size inb_S1x512_S1x512_0_0
abbrev rTile : Rect S512x12800 := Rect.unit (s := S512x12800) ![0, 0] S512x12800.size inb_S512x12800_S512x12800_0_0
abbrev rOut : Rect S1x12800 := Rect.unit (s := S1x12800) ![0, 0] S1x12800.size inb_S1x12800_S1x12800_0_0

/-- What the body leaves in the result tile, from the contents of the three input buffers: its one store. -/
def outTile (x0 : Vec F S1x512 .f32) (x1 : Vec F S512x12800 .f32) (x2 : Vec F S1x12800 .f32) : Vec F S1x12800 .f32 :=
  View.canon [⟨rOut, k0_pay1 (View.ld x0 rRow) (View.ld x1 rTile) (View.ld x2 rOut)⟩]

/-- The one store covers the tile. -/
theorem coverOut (p0 : Vec F S1x12800 .f32) (y : S1x12800.Idx) :
    ∃ pc ∈ ([⟨rOut, p0⟩] : List (View.Piece (Elt F) S1x12800 .f32)), y ∈ pc.1.set :=
  View.cover_of_tiled [⟨rOut, p0⟩] S1x12800.size (by rfl) y

set_option maxHeartbeats 1000000 in
/-- The body's triple on whole staging memrefs. -/
theorem sound_kernel (c : Dev nD) (E : Set ℕ) (i : grid0.Coords)
    (arg1 : Memref sig .tc .vmem S1x512 .f32) (harg1 : arg1.IsWhole) (arg2 : Memref sig .tc .vmem S512x12800 .f32) (harg2 : arg2.IsWhole)
    (arg3 : Memref sig .tc .vmem S1x12800 .f32) (harg3 : arg3.IsWhole) (arg4 : Memref sig .tc .vmem S1x12800 .f32) (harg4 : arg4.IsWhole)
    (x0 : Vec F S1x512 .f32) (x1 : Vec F S512x12800 .f32) (x2 : Vec F S1x12800 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__trunk3_kernel i arg1 harg1 arg2 harg2 arg3 harg3 arg4 harg4) K := by
  simp only [cc0__trunk3_kernel_eq_skeleton]; unfold cc0__trunk3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.KernelIdeal.Hand

end
-- ==== Proof.KI_Frame.lean ====
/-
  The frame of the program, for any float instance: every weakly fair execution ends, nothing faults, and the twelve
  argument arrays end as launched. Nothing is said of what the body computes: the proof data relate nothing (whatever
  the four staging buffers hold when the body is entered, it runs, and leaves them holding something). That is all a
  frame needs, and it is all that holds at bit patterns for the last, overhanging tile, whose product is a function
  of the whole weight tile, the words past the array's end included. An input array is never written back; every other
  argument bypasses the region and is written by no line after it.
-/
import proofs.«116783_j58213986730639_2_alg».proof.Proof.KI_Body
import proofs.«116783_j58213986730639_2_alg».proof.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; nothing said of
    what the body leaves in a staging buffer; the class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rdat_A (c : Dev nD) (w : Fin cfg0.W) : (rdat m c).A w = V m c (Pipeline.arrRef spec0 w) := by
  dsimp only [rdat]

/-- The body at any point, on whatever the four current staging buffers hold. -/
theorem body_any (c : Dev nD) (t : Fin cfg0.N)
    (Y0 : Vec F S1x512 .f32) (Y1 : Vec F S512x12800 .f32) (Y2 : Vec F S1x12800 .f32) (Y3 : Vec F S1x12800 .f32) :
    iprop((rdat m c).Φ t.castSucc ∗ (rdat m c).owesAt () t.castSucc
        ∗ owns (c : Thread nD τ) (st0_0 t) fullShare Y0 ∗ owns (c : Thread nD τ) (st0_1 t) fullShare Y1
        ∗ owns (c : Thread nD τ) (st0_2 t) fullShare Y2 ∗ owns (c : Thread nD τ) (st0_3 t) fullShare Y3)
      ⊢ wp frame (wpE (defs₀ (F := F)) Variants.none c none) Set.univ (bodyAt0 t) (fun _ =>
          iprop((rdat m c).Φ t.succ ∗ (rdat m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_kernel c Set.univ (grid0.coords t) _ _ _ _ _ _ _ _ Y0 Y1 Y2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists Y0; isplitr
    · ipureintro; trivial
    · iexact H0
  isplitl [H1]
  · iexists Y1; isplitr
    · ipureintro; trivial
    · iexact H1
  isplitl [H2]
  · iexists Y2; isplitr
    · ipureintro; trivial
    · iexact H2
  iexists (outTile Y0 Y1 Y2); isplitr
  · ipureintro; trivial
  · iexact H3

/-- The library's relational body obligation. -/
theorem body_obligation (c : Dev nD) : (rdat (F := F) m c).BodyObligation (defs₀ (F := F)) Variants.none () Set.univ := fun t Y _ => by
  rw [bigSep_W0, bigSep_W0]
  exact body_any m c t (Y 0) (Y 1) (Y 2) (Y 3)

set_option backward.isDefEq.respectTransparency.types false in
/-- The run: every weakly fair execution of the program terminates; each input array of the pipeline ends as the region
    found it, and every bypassing buffer that is an argument array too. -/
theorem run_main : θ_run defs (onTc (τ := τ) (main (F := F))) (s₀ m ρ)
    (Pipeline.RDat.FramePostR cfg0 (rdat m) nonArgs (V m)) :=
  Pipeline.RDat.θ_run_frame_around_T cfgs (0 : Fin 1) launch0 defs₀ Variants.none (rdat m) nonArgs m ρ main
    (hbody := body_obligation m) (hshare := fun c => (rdat m c).share_full fun _ => rfl)
    (howed := fun _ _ => rfl) (V₀ := V0 m) (opss := linesAfter) (hsub := after_sub) (hfresh := after_fresh) (hkeep := after_keeps)
    (hT := after_writes) (hmain := hmain m Variants.none) (hA := rdat_A m) (hΦ := fun _ _ => rfl)

/-- A bypassing argument array ends as launched. -/
theorem rest_arg (r : PUnit × MemSt nD τ sig (Elt F)) (h : Pipeline.RDat.FramePostR cfg0 (rdat m) nonArgs (V m) r) (c : Dev nD)
    (b : Ref sig .tc) (hb : b ∈ argRefs) (hs : b.isScoped = false) (ha : ∀ w, (spec0 w).arr.view.ref ≠ b) :
    r.2.mem ((c.tc : Thread nD τ).loc b) = m ((c.tc : Thread nD τ).loc b) :=
  ((h c).2 b (Finset.mem_sdiff.mpr ⟨Pipeline.mem_restRefs_of b hs ha,
    fun hn => (Finset.mem_filter.mp hn).2 hb⟩)).trans (V_arg m c b hb)

/-- The weight matrix, the one argument a window stages, is an input of the pipeline: it ends as launched. -/
theorem arr_arg6 (r : PUnit × MemSt nD τ sig (Elt F)) (h : Pipeline.RDat.FramePostR cfg0 (rdat m) nonArgs (V m) r) (c : Dev nD) :
    r.2.mem ((c.tc : Thread nD τ).loc main_arg6) = m ((c.tc : Thread nD τ).loc main_arg6) := by
  have h1 := (h c).1 1
  rw [(rdat m c).ArrAt_in 1 rfl] at h1
  exact h1.trans ((rdat_A m c 1).trans (V_arg m c main_arg6 (by decide)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      rest_arg m r h c main_arg0 (by decide) (by decide) (by decide),
      rest_arg m r h c main_arg1 (by decide) (by decide) (by decide),
      rest_arg m r h c main_arg2 (by decide) (by decide) (by decide),
      rest_arg m r h c main_arg3 (by decide) (by decide) (by decide),
      rest_arg m r h c main_arg4 (by decide) (by decide) (by decide),
      rest_arg m r h c main_arg5 (by decide) (by decide) (by decide),
      arr_arg6 m r h c,
      rest_arg m r h c main_arg7 (by decide) (by decide) (by decide),
      rest_arg m r h c main_arg8 (by decide) (by decide) (by decide),
      rest_arg m r h c main_arg9 (by decide) (by decide) (by decide),
      rest_arg m r h c main_arg10 (by decide) (by decide) (by decide),
      rest_arg m r h c main_arg11 (by decide) (by decide) (by decide)⟩) (run_main m ρ)

end Cert.KernelIdeal.Hand

end
-- ==== Proof.KI_Tile.lean ====
/-
  The region's result at the ideal values. The feature row h [1, 512] is staged whole at the first point; the weight
  matrix W [512, 400000] and the bias row b [1, 400000] are staged in tiles of 12800 columns, 32 of them, the last
  overhanging the arrays by 9600 columns (its fetch lands 3200 columns and leaves words nothing names in the rest).
  The body stores max(h·Wtile + btile, 0) over the whole result tile; the write-back moves the columns inside the
  array only. At the extended reals a product's element at a column is a sum over that column of the tile, so the
  columns written back never see the unnamed words: the result array ends holding, at column g,
  max(Σₖ h(0,k)·W(k,g) + b(0,g), 0).
-/
import proofs.«116783_j58213986730639_2_alg».proof.Proof.KI_Body
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

open Idealize.ShloMosaic.ValueIdx
open scoped BigOperators

variable (m : (ℓ : Loc nD τ sig) → Buf (Elt Ideal) ℓ) (ρ : Dev nD → PrngReg)

/-! ## The body's store at an element -/

theorem hz2 : (![0, 0] : Fin 2 → Nat) = fun _ => 0 := funext fun a => by fin_cases a <;> rfl

/-- The dimension numbers of the body's product: [1, 512] by [512, 12800]. -/
abbrev dK : DotDims S1x512 S512x12800 S1x12800 := dot_S1x512_S512x12800_S1x12800_1_0_0_1_n_n

theorem lhsK_0 (i : S1x12800.Idx) (q : dK.contr.Idx) : (dK.lhsIdx i q 0).val = (i 0).val := by
  unfold DotDims.lhsIdx
  rw [dif_neg (show ¬(0 : Fin S1x512.rank) ∈ dK.lhsBatch by decide), dif_pos (show (0 : Fin S1x512.rank) ∈ dK.lhsNonContracting by decide)]
  rfl
theorem lhsK_1 (i : S1x12800.Idx) (q : dK.contr.Idx) : (dK.lhsIdx i q 1).val = (q ⟨0, by decide⟩).val :=
  dK.lhsIdx_val_of_single rfl i q
theorem rhsK_0 (i : S1x12800.Idx) (q : dK.contr.Idx) : (dK.rhsIdx i q 0).val = (q ⟨0, by decide⟩).val :=
  dK.rhsIdx_val_of_single rfl i q
theorem rhsK_1 (i : S1x12800.Idx) (q : dK.contr.Idx) : (dK.rhsIdx i q 1).val = (i 1).val := by
  unfold DotDims.rhsIdx
  rw [dif_neg (show ¬(1 : Fin S512x12800.rank) ∈ dK.rhsBatch by decide), dif_pos (show (1 : Fin S512x12800.rank) ∈ dK.rhsNonContracting by decide)]
  rfl

/-- What the body stores at column `j 1` of the result tile: the row times that column of the weight tile, plus the
    bias there, rectified. -/
theorem outTile_apply (x0 : FVec Ideal S1x512 .f32) (x1 : FVec Ideal S512x12800 .f32) (x2 : FVec Ideal S1x12800 .f32) (j : S1x12800.Idx) :
    outTile (F := Ideal) x0 x1 x2 j
      = max ((∑ k : Fin 512, x0 (ix2 (0 : Fin 1) k) * x1 (ix2 k (j 1))) + x2 j) (Ideal.ofBits .f32 0x00000000#32) := by
  unfold outTile
  rw [View.canon_unit_zero hz2]
  simp only [View.ld_unit_zero (S := S1x512) hz2, View.ld_unit_zero (S := S512x12800) hz2, View.ld_unit_zero (S := S1x12800) hz2]
  unfold k0_pay1
  show max ((FloatOps.matmul dK none (shapeCast S1x512 x0 shapeCasts_S1x512_S1x512) x1 (constant S1x12800 .f32 0x00000000#32) j)
      + (shapeCast S1x12800 x2 shapeCasts_S1x12800_S1x12800) j) (Ideal.ofBits .f32 0x00000000#32) = _
  rw [shapeCast_self, shapeCast_self, Ideal.matmul_constant_zero_apply,
    ← Equiv.sum_comp (ValueIdx.contrEquiv1 dK 512 rfl rfl).symm]
  refine congrArg (fun s => max (s + x2 j) (Ideal.ofBits .f32 0x00000000#32)) (Finset.sum_congr rfl fun k _ => ?_)
  have hk := ValueIdx.contrEquiv1_symm_val dK 512 rfl rfl k
  have el : dK.lhsIdx j ((ValueIdx.contrEquiv1 dK 512 rfl rfl).symm k) = ix2 (0 : Fin 1) k := funext fun a => Fin.ext (by
    match a with
    | ⟨0, _⟩ => exact (lhsK_0 _ _).trans (by have := ValueIdx.idx2_lt0 j; show (j 0).val = 0; omega)
    | ⟨1, _⟩ => exact (lhsK_1 _ _).trans hk)
  have er : dK.rhsIdx j ((ValueIdx.contrEquiv1 dK 512 rfl rfl).symm k) = ix2 k (j 1) := funext fun a => Fin.ext (by
    match a with
    | ⟨0, _⟩ => exact (rhsK_0 _ _).trans hk
    | ⟨1, _⟩ => exact rhsK_1 _ _)
  rw [el, er]
  rfl

end Cert.KernelIdeal.Hand

end
-- ==== Proof.KI_Value.lean ====
/-
  The run of the program at the ideal values, with the result row named. The proof data: each input window's staging
  buffer holds its block of the array the region finds (the overhanging tiles filled out past the array's end with a
  word nothing reads); the result's holds the body's store of those. Point t's tiles are columns t·12800 … of their
  arrays; the columns the write-back moves are a function of the arrays alone (the product's element at a column
  sums over that column only), so the 32 write-backs piece the result row together: at column g it is
  max(Σₖ h(0,k)·W(k,g) + b(0,g), 0), whatever the unnamed words were.
-/
import proofs.«116783_j58213986730639_2_alg».proof.Proof.KI_Tile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

open Idealize.ShloMosaic.ValueIdx
open scoped BigOperators

variable (m : (ℓ : Loc nD τ sig) → Buf (Elt Ideal) ℓ) (ρ : Dev nD → PrngReg)

/-! ## The windows' blocks -/

/-- Window `w`'s block at point `t`, read off its array as the region finds it: the part inside the array. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The word the proof fills a tile out with past the array's end; nothing reads it. -/
abbrev zf : Elt Ideal .f32 := Scalar.ofBits (F := Ideal) .f32 0#32

/-- The feature row as staged, -/
def rowAt (c : Dev nD) (t : Fin cfg0.N) : Vec Ideal S1x512 .f32 := iblk m c 0 t
/-- the weight tile, filled out, -/
def tileW (c : Dev nD) (t : Fin cfg0.N) : Vec Ideal S512x12800 .f32 := win0_1.fill (grid0.coords t) (fun _ => zf) (iblk m c 1 t)
/-- and the bias tile, filled out. -/
def tileB (c : Dev nD) (t : Fin cfg0.N) : Vec Ideal S1x12800 .f32 := win0_2.fill (grid0.coords t) (fun _ => zf) (iblk m c 2 t)

/-- The three arrays the region's result is a function of, as the region finds them: the feature row, the weight
    matrix and the bias row. -/
abbrev hRow (c : Dev nD) : FVec Ideal S1x512 .f32 := V m c main_v11
abbrev wMat (c : Dev nD) : FVec Ideal S512x400000 .f32 := V m c main_arg6
abbrev bRow (c : Dev nD) : FVec Ideal S1x400000 .f32 := V m c main_v12

/-- The printed index maps, decided over the 32 points: the row's block never moves, the three tiled windows' block
    column is the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The extents the transfers move, decided over the 32 points: 12800 columns, but what is left of the 400000 at the last. -/
theorem size_facts : ∀ t : Fin cfg0.N,
    win0_1.xsize (grid0.coords t) (0 : Fin 2) = 512 ∧ win0_1.xsize (grid0.coords t) (1 : Fin 2) = min 12800 (400000 - t.val * 12800)
    ∧ win0_2.xsize (grid0.coords t) (0 : Fin 2) = 1 ∧ win0_2.xsize (grid0.coords t) (1 : Fin 2) = min 12800 (400000 - t.val * 12800)
    ∧ win0_3.xsize (grid0.coords t) (0 : Fin 2) = 1 ∧ win0_3.xsize (grid0.coords t) (1 : Fin 2) = min 12800 (400000 - t.val * 12800) :=
  (by decide +kernel : ∀ t : Fin grid0.N, _)

/-- The staged row is the feature row. -/
theorem rowAt_apply (c : Dev nD) (t : Fin cfg0.N) (k : Fin 512) :
    rowAt m c t (ix2 (0 : Fin 1) k) = hRow m c (ix2 (0 : Fin 1) k) := by
  obtain ⟨e0, e1, -⟩ := idx_facts t
  show V m c main_v11 (((cfg0.win 0).blk t).view.emb (ix2 (0 : Fin 1) k)) = _
  refine congrArg _ (funext fun a => Fin.ext ?_)
  match a with
  | ⟨0, _⟩ => show win0_0.index t (0 : Fin 2) * 1 + 1 * 0 = 0; omega
  | ⟨1, _⟩ => show win0_0.index t (1 : Fin 2) * 512 + 1 * k.val = k.val; omega

/-- A weight tile at a column inside the array, whatever fills it out: the matrix at column t·12800 + q. -/
theorem tileW_apply (c : Dev nD) (t : Fin cfg0.N) (d : S512x12800.Idx → Elt Ideal .f32) (k : Fin 512) (q : Fin 12800)
    (hq : t.val * 12800 + q.val < 400000) :
    win0_1.fill (grid0.coords t) d (iblk m c 1 t) (ix2 k q) = wMat m c (ix2 k (⟨t.val * 12800 + q.val, hq⟩ : Fin 400000)) := by
  obtain ⟨-, -, e2, e3, -⟩ := idx_facts t
  obtain ⟨s0, s1, -⟩ := size_facts t
  have hmv : win0_1.moved (grid0.coords t) (ix2 k q) = true := (win0_1.moved_iff _ _).mpr fun a => by
    match a with
    | ⟨0, _⟩ => show k.val < win0_1.xsize (grid0.coords t) (0 : Fin 2); rw [s0]; exact k.isLt
    | ⟨1, _⟩ => show q.val < win0_1.xsize (grid0.coords t) (1 : Fin 2); rw [s1]; have := q.isLt; omega
  unfold Pipeline.Window.fill
  rw [dif_pos hmv]
  show V m c main_arg6 (((cfg0.win 1).blk t).view.emb _) = _
  refine congrArg _ (funext fun a => Fin.ext ?_)
  match a with
  | ⟨0, _⟩ => show win0_1.index t (0 : Fin 2) * 512 + 1 * k.val = k.val; omega
  | ⟨1, _⟩ => show win0_1.index t (1 : Fin 2) * 12800 + 1 * q.val = t.val * 12800 + q.val; omega

/-- A bias tile at a column inside the array, whatever fills it out. -/
theorem tileB_apply (c : Dev nD) (t : Fin cfg0.N) (d : S1x12800.Idx → Elt Ideal .f32) (q : Fin 12800)
    (hq : t.val * 12800 + q.val < 400000) :
    win0_2.fill (grid0.coords t) d (iblk m c 2 t) (ix2 (0 : Fin 1) q) = bRow m c (ix2 (0 : Fin 1) (⟨t.val * 12800 + q.val, hq⟩ : Fin 400000)) := by
  obtain ⟨-, -, -, -, e4, e5, -⟩ := idx_facts t
  obtain ⟨-, -, s2, s3, -⟩ := size_facts t
  have hmv : win0_2.moved (grid0.coords t) (ix2 (0 : Fin 1) q) = true := (win0_2.moved_iff _ _).mpr fun a => by
    match a with
    | ⟨0, _⟩ => show 0 < win0_2.xsize (grid0.coords t) (0 : Fin 2); rw [s2]; exact Nat.one_pos
    | ⟨1, _⟩ => show q.val < win0_2.xsize (grid0.coords t) (1 : Fin 2); rw [s3]; have := q.isLt; omega
  unfold Pipeline.Window.fill
  rw [dif_pos hmv]
  show V m c main_v12 (((cfg0.win 2).blk t).view.emb _) = _
  refine congrArg _ (funext fun a => Fin.ext ?_)
  match a with
  | ⟨0, _⟩ => show win0_2.index t (0 : Fin 2) * 1 + 1 * 0 = 0; omega
  | ⟨1, _⟩ => show win0_2.index t (1 : Fin 2) * 12800 + 1 * q.val = t.val * 12800 + q.val; omega

/-! ## The result row -/

/-- The region's result as one function of the arrays it finds: at column g, the feature row times column g of the
    weight matrix, plus the bias there, rectified. -/
def trunkRow (h : FVec Ideal S1x512 .f32) (w : FVec Ideal S512x400000 .f32) (b : FVec Ideal S1x400000 .f32) : FVec Ideal S1x400000 .f32 :=
  fun i => max ((∑ k : Fin 512, h (ix2 (0 : Fin 1) k) * w (ix2 k (i 1))) + b (ix2 (0 : Fin 1) (i 1))) (Ideal.ofBits .f32 0x00000000#32)

set_option maxHeartbeats 2000000 in
/-- What the body stores, at a column the write-back moves, is the result row there — whatever fills the tiles out. -/
theorem cut_tile (c : Dev nD) (t : Fin cfg0.N) (d1 : S512x12800.Idx → Elt Ideal .f32) (d2 : S1x12800.Idx → Elt Ideal .f32)
    (y : (win0_3.xblock (grid0.coords t)).Idx) :
    outTile (F := Ideal) (rowAt m c t) (win0_1.fill (grid0.coords t) d1 (iblk m c 1 t)) (win0_2.fill (grid0.coords t) d2 (iblk m c 2 t))
        (win0_3.xinj (grid0.coords t) y)
      = trunkRow (hRow m c) (wMat m c) (bRow m c) (((cfg0.win 3).blk t).view.emb y) := by
  obtain ⟨-, -, -, -, -, -, e6, e7⟩ := idx_facts t
  obtain ⟨-, -, -, -, s4, s5⟩ := size_facts t
  have hy0 : (y 0).val < 1 := lt_of_lt_of_eq (y 0).isLt s4
  have hy1 : (y 1).val < min 12800 (400000 - t.val * 12800) := lt_of_lt_of_eq (y 1).isLt s5
  have hq12 : (y 1).val < 12800 := by omega
  have hq : t.val * 12800 + (y 1).val < 400000 := by omega
  have hx : win0_3.xinj (grid0.coords t) y = ix2 (0 : Fin 1) (⟨(y 1).val, hq12⟩ : Fin 12800) := funext fun a => Fin.ext (by
    match a with
    | ⟨0, _⟩ => show (y 0).val = 0; omega
    | ⟨1, _⟩ => rfl)
  have he : ((cfg0.win 3).blk t).view.emb y = ix2 (0 : Fin 1) (⟨t.val * 12800 + (y 1).val, hq⟩ : Fin 400000) := funext fun a => Fin.ext (by
    match a with
    | ⟨0, _⟩ => show win0_3.index t (0 : Fin 2) * 1 + 1 * (y 0).val = 0; omega
    | ⟨1, _⟩ => show win0_3.index t (1 : Fin 2) * 12800 + 1 * (y 1).val = t.val * 12800 + (y 1).val; omega)
  rw [hx, he, outTile_apply]
  unfold trunkRow
  show max ((∑ k : Fin 512, rowAt m c t (ix2 (0 : Fin 1) k) * win0_1.fill (grid0.coords t) d1 (iblk m c 1 t) (ix2 k (⟨(y 1).val, hq12⟩ : Fin 12800)))
        + win0_2.fill (grid0.coords t) d2 (iblk m c 2 t) (ix2 (0 : Fin 1) (⟨(y 1).val, hq12⟩ : Fin 12800))) (Ideal.ofBits .f32 0x00000000#32)
      = max ((∑ k : Fin 512, hRow m c (ix2 (0 : Fin 1) k) * wMat m c (ix2 k (⟨t.val * 12800 + (y 1).val, hq⟩ : Fin 400000)))
        + bRow m c (ix2 (0 : Fin 1) (⟨t.val * 12800 + (y 1).val, hq⟩ : Fin 400000))) (Ideal.ofBits .f32 0x00000000#32)
  rw [tileB_apply m c t d2 ⟨(y 1).val, hq12⟩ hq]
  refine congrArg (fun s => max (s + _) _) (Finset.sum_congr rfl fun k _ => ?_)
  rw [rowAt_apply, tileW_apply m c t d1 k ⟨(y 1).val, hq12⟩ hq]

/-- So the columns the write-back moves are the result row read through the point's block. -/
theorem cut_outTile (c : Dev nD) (t : Fin cfg0.N) (d1 : S512x12800.Idx → Elt Ideal .f32) (d2 : S1x12800.Idx → Elt Ideal .f32) :
    win0_3.cut (grid0.coords t) (outTile (F := Ideal) (rowAt m c t) (win0_1.fill (grid0.coords t) d1 (iblk m c 1 t))
        (win0_2.fill (grid0.coords t) d2 (iblk m c 2 t)))
      = ((cfg0.win 3).blk t).view.read (Elt Ideal) (trunkRow (hRow m c) (wMat m c) (bRow m c)) :=
  funext fun y => cut_tile m c t d1 d2 y

/-! ## The proof data -/

/-- The proof data of the one pipeline on core `c`: the arrays as the region finds them; after the body the inputs'
    buffers at their blocks (filled out), the result's at the body's store of them; the class's invariant. -/
def dats (_ : Fin 1) (c : Dev nD) : Dat τ (Elt Ideal) Unit ℕ (UR sig nD τ) ℕ cfg0 c where
  A w := V m c (Pipeline.arrRef spec0 w)
  after w t := match w with
    | ⟨0, _⟩ => rowAt m c t
    | ⟨1, _⟩ => tileW m c t
    | ⟨2, _⟩ => tileB m c t
    | ⟨3, _⟩ => outTile (F := Ideal) (rowAt m c t) (tileW m c t) (tileB m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = rowAt m c t := by dsimp only [dats]
theorem after1 (c : Dev nD) (t : Fin cfg0.N) : (dats m 0 c).after 1 t = tileW m c t := by dsimp only [dats]
theorem after2 (c : Dev nD) (t : Fin cfg0.N) : (dats m 0 c).after 2 t = tileB m c t := by dsimp only [dats]
theorem after3 (c : Dev nD) (t : Fin cfg0.N) :
    (dats m 0 c).after 3 t = outTile (F := Ideal) (rowAt m c t) (tileW m c t) (tileB m c t) := by dsimp only [dats]

/-- The result's window is never fetched. -/
theorem fetch0_3 : ∀ t : Fin cfg0.N, (cfg0.win 3).fetch t = false :=
  (by decide +kernel : ∀ t : Fin grid0.N, win0_3.fetch t = false)

/-- The row's buffer holds the row at every point, fetched there (the first) or not. -/
theorem before0 (c : Dev nD) (t : Fin cfg0.N) (d) : (dats m 0 c).before 0 t d = rowAt m c t :=
  ((dats m 0 c).before_in_eq_fetched 0 rfl (fun _ => rfl) (fun _ _ _ => rfl)
    (fun t => by rw [after0]; unfold Dat.blockOf rowAt iblk; rw [A_eq]; try rfl) t d).trans
    (by unfold Dat.fetched Dat.blockOf rowAt iblk; rw [A_eq]; try rfl)
/-- The tiles' buffers are fetched at every point: the block on the columns inside the array, `d` past them. -/
theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]; try rfl
/-- The result's buffer holds words nothing names. -/
theorem before3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel (F := Ideal) c Set.univ (grid0.coords t) _ _ _ _ _ _ _ _ (rowAt m c t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  have h1 : win0_1.fill (grid0.coords t) d1 (win0_1.cut (grid0.coords t) (tileW m c t)) = win0_1.fill (grid0.coords t) d1 (iblk m c 1 t) := by
    unfold tileW; rw [win0_1.cut_fill]
  have h2 : win0_2.fill (grid0.coords t) d2 (win0_2.cut (grid0.coords t) (tileB m c t)) = win0_2.fill (grid0.coords t) d2 (iblk m c 2 t) := by
    unfold tileB; rw [win0_2.cut_fill]
  have h3 : win0_3.fill (grid0.coords t) (outTile (F := Ideal) (rowAt m c t) (win0_1.fill (grid0.coords t) d1 (iblk m c 1 t)) (win0_2.fill (grid0.coords t) d2 (iblk m c 2 t)))
        (win0_3.cut (grid0.coords t) (outTile (F := Ideal) (rowAt m c t) (tileW m c t) (tileB m c t)))
      = outTile (F := Ideal) (rowAt m c t) (win0_1.fill (grid0.coords t) d1 (iblk m c 1 t)) (win0_2.fill (grid0.coords t) d2 (iblk m c 2 t)) :=
    win0_3.fill_congr_cut (grid0.coords t) ((cut_outTile m c t d1 d2).trans (cut_outTile m c t _ _).symm)
  isplitl [H1]
  · iexists d1
    change _ ⊢ owns (c : Thread nD τ) (st0_1 t) fullShare (win0_1.fill (grid0.coords t) d1 (win0_1.cut (grid0.coords t) (tileW m c t)))
    rw [h1]; try iexact H1
  isplitl [H2]
  · iexists d2
    change _ ⊢ owns (c : Thread nD τ) (st0_2 t) fullShare (win0_2.fill (grid0.coords t) d2 (win0_2.cut (grid0.coords t) (tileB m c t)))
    rw [h2]; try iexact H2
  · iexists (outTile (F := Ideal) (rowAt m c t) (win0_1.fill (grid0.coords t) d1 (iblk m c 1 t)) (win0_2.fill (grid0.coords t) d2 (iblk m c 2 t)))
    change _ ⊢ owns (c : Thread nD τ) (st0_3 t) fullShare (win0_3.fill (grid0.coords t) _ (win0_3.cut (grid0.coords t) (outTile (F := Ideal) (rowAt m c t) (tileW m c t) (tileB m c t))))
    rw [h3]; try iexact H3

/-- The library's body obligation (each tiled window's buffer stated on the columns its transfers move). -/
theorem body_obligation_loose (c : Dev nD) : Pipeline.BodyObligationLoose (dats m 0 c) (defs₀ (F := Ideal)) Variants.none () Set.univ := fun t => by
  rw [bigSep_W0, bigSep_W0]
  exact sound_body m c t

/-! ## What the result array ends holding -/

/-- What point `t` writes back is block `t` of the result row. -/
theorem flushed3_eq (c : Dev nD) (t : Fin cfg0.N) :
    (dats m 0 c).flushed 3 t = ((cfg0.win 3).blk t).view.read (Elt Ideal) (trunkRow (hRow m c) (wMat m c) (bRow m c)) := by
  show (cfg0.win 3).cut (grid0.coords t) ((dats m 0 c).after 3 t) = _
  rw [after3]
  exact cut_outTile m c t _ _

/-- An index of the result array is in point `t`'s block iff each coordinate is in the block's range, cut at the array's end. -/
theorem mem_blk3 (t : Fin cfg0.N) (i : S1x400000.Idx) :
    i ∈ ((cfg0.win 3).blk t).view.set ↔ ∀ a : Fin 2, win0_3.index t a * S1x12800.size a ≤ (i a).val
      ∧ (i a).val < win0_3.index t a * S1x12800.size a + win0_3.xsize (grid0.coords t) a := by
  show i ∈ ((View.whole main_v13).slice (win0_3.rect t)).set ↔ _
  rw [View.set_slice_whole, Rect.mem_set_unit]
  exact Iff.rfl

/-- The 32 blocks cover the 400000 columns: column g is in block g / 12800. -/
theorem cover3 (i : S1x400000.Idx) : ∃ t : Fin cfg0.N, (cfg0.win 3).flush t = true ∧ i ∈ ((cfg0.win 3).blk t).view.set := by
  have hi0 : (i 0).val < 1 := (i 0).isLt
  have hi1 : (i 1).val < 400000 := (i 1).isLt
  have hN : (i 1).val / 12800 < grid0.N := by rw [N_0]; omega
  refine ⟨⟨(i 1).val / 12800, hN⟩, flush0_3 _, ?_⟩
  rw [mem_blk3]
  obtain ⟨-, -, -, -, -, -, e6, e7⟩ := idx_facts ⟨(i 1).val / 12800, hN⟩
  obtain ⟨-, -, -, -, s4, s5⟩ := size_facts ⟨(i 1).val / 12800, hN⟩
  have e7' : win0_3.index ⟨(i 1).val / 12800, hN⟩ (1 : Fin 2) = (i 1).val / 12800 := e7
  have s5' : win0_3.xsize (grid0.coords ⟨(i 1).val / 12800, hN⟩) (1 : Fin 2) = min 12800 (400000 - (i 1).val / 12800 * 12800) := s5
  intro a
  match a with
  | ⟨0, _⟩ =>
    show win0_3.index ⟨(i 1).val / 12800, hN⟩ (0 : Fin 2) * 1 ≤ (i 0).val
      ∧ (i 0).val < win0_3.index ⟨(i 1).val / 12800, hN⟩ (0 : Fin 2) * 1 + win0_3.xsize (grid0.coords ⟨(i 1).val / 12800, hN⟩) (0 : Fin 2)
    omega
  | ⟨1, _⟩ =>
    show win0_3.index ⟨(i 1).val / 12800, hN⟩ (1 : Fin 2) * 12800 ≤ (i 1).val
      ∧ (i 1).val < win0_3.index ⟨(i 1).val / 12800, hN⟩ (1 : Fin 2) * 12800 + win0_3.xsize (grid0.coords ⟨(i 1).val / 12800, hN⟩) (1 : Fin 2)
    omega

/-- THE RESULT ARRAY after the run: the result row. -/
theorem final3 (c : Dev nD) :
    (dats m 0 c).arrAt 3 cfg0.N = trunkRow (hRow m c) (wMat m c) (bRow m c) :=
  (dats m 0 c).arrAt_eq_of_cover 3 _ (fun t _ => flushed3_eq m c t) cover3

/-! ## The run -/

set_option backward.isDefEq.respectTransparency.types false in
/-- Every weakly fair execution of the program terminates, the pipeline's arrays at what the library computes from the
    proof data and every other buffer as the lines after the region leave it. -/
theorem run_value : θ_run defs (onTc (τ := τ) (main (F := Ideal))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => body_obligation_loose m c) (hshare := fun c => (dats m 0 c).share_full fun _ => rfl)
    (howed := fun _ _ => rfl) (V₀ := V0 m) (opss := linesAfter) (hsub := after_sub) (hfresh := after_fresh) (hkeep := after_keeps)
    (hmain := hmain m Variants.none) (hA := A_eq m) (hΦ := fun _ _ => rfl)

end Cert.KernelIdeal.Hand

end
-- ==== Proof.KI_Tail.lean ====
/-
  The lines after the region as ONE function, for any float instance: from the region's result row [1, 400000], the
  two index rows of the edge list and the four small argument arrays, the program's result. In order: the row read
  as [100000, 4] node features; the in-degree of each node (a scatter-add of ones over the destination indices, a
  negative index first moved up by the node count) plus one for the self-loop, its reciprocal square root gathered at
  both ends of every edge and multiplied into the edge weight, and its reciprocal; then two graph-convolution layers,
  each a dense map, the neighbours' rows gathered, weighted and scatter-added at the destinations, the node's own
  row added at weight 1/degree, a bias; a rectifier between them; the logistic function of the last, as a flat
  array. The read-back lemma says the fold of those lines over any buffer contents is this function of seven buffers.
-/
import proofs.«116783_j58213986730639_2_alg».proof.Proof.KI_Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxRecDepth 8192 in
/-- The program's result from the region's result `p`, the source and destination index rows `e1`, `e3`, and the
    graph layers' weights and biases. -/
def afterRegion (p : (⟨S1x400000, .f32⟩ : BufTy).Contents (Elt F)) (e1 e3 : (⟨S3200000, .i32⟩ : BufTy).Contents (Elt F)) (a8 : (⟨S4x2, .f32⟩ : BufTy).Contents (Elt F)) (a9 : (⟨S2, .f32⟩ : BufTy).Contents (Elt F))
    (a10 : (⟨S2x1, .f32⟩ : BufTy).Contents (Elt F)) (a11 : (⟨S1, .f32⟩ : BufTy).Contents (Elt F)) : (⟨S100000, .f32⟩ : BufTy).Contents (Elt F) :=
  (shapeCast _ (Host.divf (broadcastInDim S100000x1 ![] bcast_S_S100000x1 (constant S_ .f32 0x3F800000#32)) (addf (broadcastInDim S100000x1 ![] bcast_S_S100000x1 (constant S_ .f32 0x3F800000#32)) (Host.exp (Host.negf (addf (addf (Host.scatterAdd scatter_S100000x1_S3200000x1_S3200000x1_1_0_0_1 (broadcastInDim S100000x1 ![] bcast_S_S100000x1 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (mulf (Host.gather gather_S100000x1_S3200000x1_S3200000x1_1_0_n_n_0_1_11 (Host.dotGeneral dot_S100000x2_S2x1_S100000x1_1_0_0_1_n_n none (maximumf (addf (addf (Host.scatterAdd scatter_S100000x2_S3200000x1_S3200000x2_1_0_0_1 (broadcastInDim S100000x2 ![] bcast_S_S100000x2 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (mulf (Host.gather gather_S100000x2_S3200000x1_S3200000x2_1_0_n_n_0_1_12 (Host.dotGeneral dot_S100000x4_S4x2_S100000x2_1_0_0_1_n_n none (shapeCast _ p shapeCasts_S1x400000_S100000x4) a8) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (broadcastInDim S3200000x2 ![0, 1] bcast_S3200000x1_S3200000x2_0_1 (broadcastInDim S3200000x1 ![0] bcast_S3200000_S3200000x1_0 (mulf (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)))))))) (mulf (Host.dotGeneral dot_S100000x4_S4x2_S100000x2_1_0_0_1_n_n none (shapeCast _ p shapeCasts_S1x400000_S100000x4) a8) (broadcastInDim S100000x2 ![0, 1] bcast_S100000x1_S100000x2_0_1 (broadcastInDim S100000x1 ![0] bcast_S100000_S100000x1_0 (Host.divf (broadcastInDim S100000 ![] bcast_S_S100000 (constant S_ .f32 0x3F800000#32)) (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))))))) (broadcastInDim S100000x2 ![0, 1] bcast_S1x2_S100000x2_0_1 (broadcastInDim S1x2 ![1] bcast_S2_S1x2_1 a9))) (broadcastInDim S100000x2 ![] bcast_S_S100000x2 (constant S_ .f32 0x00000000#32))) a10) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (broadcastInDim S3200000x1 ![0] bcast_S3200000_S3200000x1_0 (mulf (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3))))))) (mulf (Host.dotGeneral dot_S100000x2_S2x1_S100000x1_1_0_0_1_n_n none (maximumf (addf (addf (Host.scatterAdd scatter_S100000x2_S3200000x1_S3200000x2_1_0_0_1 (broadcastInDim S100000x2 ![] bcast_S_S100000x2 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (mulf (Host.gather gather_S100000x2_S3200000x1_S3200000x2_1_0_n_n_0_1_12 (Host.dotGeneral dot_S100000x4_S4x2_S100000x2_1_0_0_1_n_n none (shapeCast _ p shapeCasts_S1x400000_S100000x4) a8) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (broadcastInDim S3200000x2 ![0, 1] bcast_S3200000x1_S3200000x2_0_1 (broadcastInDim S3200000x1 ![0] bcast_S3200000_S3200000x1_0 (mulf (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e1 (broadcastInDim S3200000 ![] bcast_S_S3200000 (constantI S_ 32 0#32))) (addi e1 (broadcastInDim S3200000 ![] bcast_S_S3200000 (constantI S_ 32 100000#32))) e1))) (Host.gather gather_S100000_S3200000x1_S3200000_n_0_n_n_0_1_1 (Host.rsqrt (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)))))))) (mulf (Host.dotGeneral dot_S100000x4_S4x2_S100000x2_1_0_0_1_n_n none (shapeCast _ p shapeCasts_S1x400000_S100000x4) a8) (broadcastInDim S100000x2 ![0, 1] bcast_S100000x1_S100000x2_0_1 (broadcastInDim S100000x1 ![0] bcast_S100000_S100000x1_0 (Host.divf (broadcastInDim S100000 ![] bcast_S_S100000 (constant S_ .f32 0x3F800000#32)) (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32)))))))) (broadcastInDim S100000x2 ![0, 1] bcast_S1x2_S100000x2_0_1 (broadcastInDim S1x2 ![1] bcast_S2_S1x2_1 a9))) (broadcastInDim S100000x2 ![] bcast_S_S100000x2 (constant S_ .f32 0x00000000#32))) a10) (broadcastInDim S100000x1 ![0] bcast_S100000_S100000x1_0 (Host.divf (broadcastInDim S100000 ![] bcast_S_S100000 (constant S_ .f32 0x3F800000#32)) (addf (Host.scatterAdd scatter_S100000_S3200000x1_S3200000_n_0_0_1 (broadcastInDim S100000 ![] bcast_S_S100000 (constant S_ .f32 0x00000000#32)) (broadcastInDim S3200000x1 ![0] bcast_S3200000_S3200000x1_0 (select (cmpi .slt e3 (broadcastInDim S3200000 ![] bcast_S_S3200000 (constantI S_ 32 0#32))) (addi e3 (broadcastInDim S3200000 ![] bcast_S_S3200000 (constantI S_ 32 100000#32))) e3)) (broadcastInDim S3200000 ![] bcast_S_S3200000 (constant S_ .f32 0x3F800000#32))) (broadcastInDim S100000 ![] bcast_S_S100000 (constant S_ .f32 0x3F800000#32))))))) (broadcastInDim S100000x1 ![0, 1] bcast_S1x1_S100000x1_0_1 (broadcastInDim S1x1 ![1] bcast_S1_S1x1_1 a11))))))) shapeCasts_S100000x1_S100000)

set_option maxRecDepth 8192 in
set_option maxHeartbeats 69200000 in
/-- The fold of the lines after the region over any contents `W`, read at the result buffer. -/
theorem after_linesAfter (W : Valuation τ sig (Elt F)) :
    StableHlo.after (List.flatten (linesAfter (F := F))) W (Proc.devRef .tc main_v101)
      = afterRegion (F := F) (W (Proc.devRef .tc main_v13)) (W (Proc.devRef .tc main_v1)) (W (Proc.devRef .tc main_v3))
          (W (Proc.devRef .tc main_arg8)) (W (Proc.devRef .tc main_arg9)) (W (Proc.devRef .tc main_arg10)) (W (Proc.devRef .tc main_arg11)) := by
  simp only [hostOps1, hostOps1_1, hostOps1_2, List.flatten_cons, List.flatten_nil, List.append_nil, List.cons_append, List.nil_append]
  after_results_simp <;> rfl <;> (unfold afterRegion; rfl)

end Cert.KernelIdeal.Hand

end
-- ==== Proof.KI_Bridge.lean ====
/-
  The bridge between the two idealized programs, at the extended reals. The lines before the region compute the same
  feature row and bias row as the reference's first lines; the region's result row is the reference's third dense
  layer, rectified (column g of both is max(Σₖ h(0,k)·W(k,g) + b(g), 0): the kernel adds the bias as a [1, 400000] row
  reshaped from the vector, the reference as the vector broadcast along the row); and the lines after the region are,
  operation for operation, the reference's remaining lines — the reference computes the degree normalisation once
  per graph layer, the kernel once for both, from the same edge list, so the two are one function of the arguments.
-/
import proofs.«116783_j58213986730639_2_alg».proof.Proof.KI_Value
import proofs.«116783_j58213986730639_2_alg».proof.Proof.KI_Tail
import proofs.«116783_j58213986730639_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

open Idealize.ShloMosaic.ValueIdx
open Cert.ReferenceIdeal.Read
open scoped BigOperators

variable (m : (ℓ : Loc nD τ sig) → Buf (Elt Ideal) ℓ) (ρ : Dev nD → PrngReg)

/-! ## The lines before the region -/

/-- The feature row the region finds is the reference's second rectified dense layer of the arguments. -/
theorem V_v11 (c : Dev nD) : (V m c main_v11 : (⟨S1x512, .f32⟩ : BufTy).Contents (Elt Ideal))
    = val_main_v11 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  dsimp only [V, V0]
  simp only [linesBefore, hostOps0, hostOps0_1, hostOps0_2, hostOps0_3, hostOps0_4, List.flatten_cons, List.flatten_nil, List.append_nil, List.cons_append, List.nil_append]
  after_results_simp <;> rfl

/-- The bias row the region finds is the bias vector read as one row. -/
theorem V_v12 (c : Dev nD) : (V m c main_v12 : (⟨S1x400000, .f32⟩ : BufTy).Contents (Elt Ideal))
    = shapeCast S1x400000 (m ((c : Thread nD τ).loc main_arg7)) shapeCasts_S400000_S1x400000 := by
  dsimp only [V, V0]
  simp only [linesBefore, hostOps0, hostOps0_1, hostOps0_2, hostOps0_3, hostOps0_4, List.flatten_cons, List.flatten_nil, List.append_nil, List.cons_append, List.nil_append]
  after_results_simp <;> rfl

/-- The source index row, -/
theorem V_v1 (c : Dev nD) : (V m c main_v1 : (⟨S3200000, .i32⟩ : BufTy).Contents (Elt Ideal)) = val_main_v1 (F := Ideal) (m ((c : Thread nD τ).loc main_arg1)) := by
  dsimp only [V, V0]
  simp only [linesBefore, hostOps0, hostOps0_1, hostOps0_2, hostOps0_3, hostOps0_4, List.flatten_cons, List.flatten_nil, List.append_nil, List.cons_append, List.nil_append]
  after_results_simp <;> rfl

/-- and the destination index row. -/
theorem V_v3 (c : Dev nD) : (V m c main_v3 : (⟨S3200000, .i32⟩ : BufTy).Contents (Elt Ideal)) = val_main_v3 (F := Ideal) (m ((c : Thread nD τ).loc main_arg1)) := by
  dsimp only [V, V0]
  simp only [linesBefore, hostOps0, hostOps0_1, hostOps0_2, hostOps0_3, hostOps0_4, List.flatten_cons, List.flatten_nil, List.append_nil, List.cons_append, List.nil_append]
  after_results_simp <;> rfl

/-! ## The region's result is the reference's third layer -/

theorem trunk_eq (x0 : (⟨S1x128, .f32⟩ : BufTy).Contents (Elt Ideal)) (x2 : (⟨S128x256, .f32⟩ : BufTy).Contents (Elt Ideal)) (x3 : (⟨S256, .f32⟩ : BufTy).Contents (Elt Ideal))
    (x4 : (⟨S256x512, .f32⟩ : BufTy).Contents (Elt Ideal)) (x5 : (⟨S512, .f32⟩ : BufTy).Contents (Elt Ideal)) (x6 : (⟨S512x400000, .f32⟩ : BufTy).Contents (Elt Ideal))
    (x7 : (⟨S400000, .f32⟩ : BufTy).Contents (Elt Ideal)) :
    trunkRow (val_main_v11 (F := Ideal) x0 x2 x3 x4 x5) x6 (shapeCast S1x400000 x7 shapeCasts_S400000_S1x400000)
      = val_main_v15 (F := Ideal) x0 x2 x3 x4 x5 x6 x7 := by
  funext i
  rw [val_main_v15_apply, val_main_v14_apply, val_main_v12_apply, val_main_v13_apply, val_main_call2_v0_apply, val_main_call2_cst_apply]
  unfold trunkRow
  have hi0 : (i 0).val = 0 := by have := ValueIdx.idx2_lt0 i; omega
  have hl : ∀ k : Fin 512, lidx_main_v12 i k = ix2 (0 : Fin 1) k := fun k => funext fun a => Fin.ext (by
    match a with
    | ⟨0, _⟩ => exact hi0
    | ⟨1, _⟩ => rfl)
  have hr : ∀ k : Fin 512, ridx_main_v12 i k = ix2 k (i 1) := fun k => funext fun a => Fin.ext (by
    match a with
    | ⟨0, _⟩ => rfl
    | ⟨1, _⟩ => rfl)
  have hb : (shapeCast S1x400000 x7 shapeCasts_S400000_S1x400000) (ix2 (0 : Fin 1) (i 1)) = x7 (idx_main_v13 i) :=
    shapeCast_apply x7 shapeCasts_S400000_S1x400000 _ _ (by
      rewrite [Shape.rowMajor_val_one, Shape.rowMajor_val_two]
      show (i 1).val = 0 * 400000 + (i 1).val
      omega)
  rw [hb]
  simp only [hl, hr]
  rfl

/-! ## The lines after the region are the reference's remaining lines -/

set_option maxRecDepth 65536 in
set_option maxHeartbeats 40000000 in
theorem tail_eq (x0 : (⟨S1x128, .f32⟩ : BufTy).Contents (Elt Ideal)) (x1 : (⟨S2x3200000, .i32⟩ : BufTy).Contents (Elt Ideal)) (x2 : (⟨S128x256, .f32⟩ : BufTy).Contents (Elt Ideal))
    (x3 : (⟨S256, .f32⟩ : BufTy).Contents (Elt Ideal)) (x4 : (⟨S256x512, .f32⟩ : BufTy).Contents (Elt Ideal)) (x5 : (⟨S512, .f32⟩ : BufTy).Contents (Elt Ideal))
    (x6 : (⟨S512x400000, .f32⟩ : BufTy).Contents (Elt Ideal)) (x7 : (⟨S400000, .f32⟩ : BufTy).Contents (Elt Ideal)) (x8 : (⟨S4x2, .f32⟩ : BufTy).Contents (Elt Ideal))
    (x9 : (⟨S2, .f32⟩ : BufTy).Contents (Elt Ideal)) (x10 : (⟨S2x1, .f32⟩ : BufTy).Contents (Elt Ideal)) (x11 : (⟨S1, .f32⟩ : BufTy).Contents (Elt Ideal)) :
    afterRegion (F := Ideal) (val_main_v15 (F := Ideal) x0 x2 x3 x4 x5 x6 x7) (val_main_v1 (F := Ideal) x1) (val_main_v3 (F := Ideal) x1) x8 x9 x10 x11
      = val_main_v132 (F := Ideal) x0 x1 x2 x3 x4 x5 x6 x7 x8 x9 x10 x11 := by
  unfold afterRegion
  rfl

/-! ## The kernel's result buffer after the run -/

/-- The result buffer after the lines that follow the region: the reference's result of the arguments. -/
theorem kernel_value (c : Dev nD) :
    (Pipeline.afterTail₀ cfgs (dats m) 0 (V0 m) linesAfter c main_v101 : (⟨S100000, .f32⟩ : BufTy).Contents (Elt Ideal))
      = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  rw [after_linesAfter]
  have h13 : Pipeline.withArrays (cfgs 0).spec c (V0 m c) (fun w => (dats m 0 c).arrAt w (cfgs 0).N) (Proc.devRef .tc main_v13)
      = (dats m 0 c).arrAt 3 cfg0.N := Pipeline.withArrays_arr spec0 launch0.win.arr_inj c _ _ 3
  have hne : ∀ b : Ref sig .tc, (∀ w, Pipeline.arrRef spec0 w ≠ b) →
      Pipeline.withArrays (cfgs 0).spec c (V0 m c) (fun w => (dats m 0 c).arrAt w (cfgs 0).N) (Proc.devRef .tc b) = V m c b :=
    fun b hb => Pipeline.withArrays_of_ne _ c (V0 m c) _ b hb
  rw [h13, final3, hne main_v1 (by decide), hne main_v3 (by decide), hne main_arg8 (by decide), hne main_arg9 (by decide),
    hne main_arg10 (by decide), hne main_arg11 (by decide)]
  dsimp only [hRow, wMat, bRow]
  rw [V_v11, V_v12, V_v1, V_v3, V_arg m c main_arg6 (by decide), V_arg m c main_arg8 (by decide), V_arg m c main_arg9 (by decide),
    V_arg m c main_arg10 (by decide), V_arg m c main_arg11 (by decide), trunk_eq, tail_eq]

end Cert.KernelIdeal.Hand

end
-- ==== Proof.lean ====
/-
  The certificate's five claims. The kernel computes, for a graph of 100000 nodes and 3200000 edges, three dense
  rectified layers of one latent row — the third, 512 by 400000, on the matrix unit in 32 tiles of 12800 columns, the
  last overhanging the arrays — then two graph-convolution layers over the [100000, 4] reading of that row and a
  logistic; the reference is the same computation in plain array operations, with the degree normalisation computed
  once per graph layer instead of once.

  The frames of the two kernel programs hold at any float instance and say nothing of what the region computes
  (at bit patterns the overhanging tile's product is a function of words nothing names). The frame of the reference is its
  run with the result dropped. Nothing was idealized, so the idealization claim is the trivial one. At the extended
  reals the region's result row is, column by column, the reference's third layer — a product's element sums over one
  column of the tile, so the unnamed words past the array's end never reach a column that is written back — and the
  lines after the region are the reference's remaining lines, operation for operation: both programs end with one
  function of the twelve arguments. No step of the equality needs the inputs finite.
-/
import proofs.«116783_j58213986730639_2_alg».proof.Defs
import proofs.«116783_j58213986730639_2_alg».proof.Proof.K_Frame
import proofs.«116783_j58213986730639_2_alg».proof.Proof.KI_Frame
import proofs.«116783_j58213986730639_2_alg».proof.Proof.KI_Bridge
import proofs.«116783_j58213986730639_2_alg».proof.Proof.Gen.Kernel
import proofs.«116783_j58213986730639_2_alg».proof.Proof.Gen.KernelIdeal
import proofs.«116783_j58213986730639_2_alg».proof.Proof.Gen.ReferenceIdeal
import proofs.«116783_j58213986730639_2_alg».proof.Proof.Gen.ReferenceIdeal.Run
import proofs.«116783_j58213986730639_2_alg».proof.Proof.Gen.ReferenceIdeal.Read
import proofs.«116783_j58213986730639_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- Two facts about every weakly fair execution of one program from one state hold together. -/
theorem run_and {nD : Nat} {τ : Topo} {sig : RefSig} {Val : EltTy → Type} {Λ : Labels}
    (defs : Defs nD τ sig Val Λ) (p : (c : Thread nD τ) → Prog (TpuEff nD τ sig Val Λ c.2) PUnit) (s : MemSt nD τ sig Val)
    (Q1 Q2 : PUnit × MemSt nD τ sig Val → Prop) (h1 : θ_run defs p s Q1) (h2 : θ_run defs p s Q2) :
    θ_run defs p s (fun r => Q1 r ∧ Q2 r) := by
  have h1' : MeshRun defs (fun m' => Q1 (⟨⟩, m')) (load p s) := h1
  have h2' : MeshRun defs (fun m' => Q2 (⟨⟩, m')) (load p s) := h2
  exact (⟨fun t ht hf => ⟨h1'.post t ht hf, h2'.post t ht hf⟩, h1'.progress, h1'.fair⟩ :
    MeshRun defs (fun m' => Q1 (⟨⟩, m') ∧ Q2 (⟨⟩, m')) (load p s))

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's function of the arguments in their result buffers. -/
theorem algebraic : Cert.algebraic_KernelIdeal_ReferenceIdeal := by
  intro m ρ m' ρ' _ hagree
  refine ⟨fun c => Cert.ReferenceIdeal.Read.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, h.2 c⟩)
      (run_and _ _ _ _ _ (Cert.KernelIdeal.Hand.run_value m ρ) (Cert.KernelIdeal.Hand.frame (F := Ideal) m ρ))
    exact ((h.1 c).2 Cert.KernelIdeal.main_v101 (Pipeline.mem_restRefs_of Cert.KernelIdeal.main_v101 (by decide) (by decide))).trans
      (Cert.KernelIdeal.Hand.kernel_value m c)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11⟩ := hagree c
    rw [Cert.ReferenceIdeal.Read.val_main_v132_eq, g0, g1, g2, g3, g4, g5, g6, g7, g8, g9, g10, g11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
